-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S65536x2 : Shape := ⟨2, ![65536, 2]⟩
abbrev S8192 : Shape := ⟨1, ![8192]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : IVec S262144x128 32) (main_arg1 : FVec F S65536x2 .f32) (main_arg2 : FVec F S8192 .f32) (main_arg3 : FVec F S8192 .f32) : IVec S_ 1 :=
  let main_v0 : FVec F S65536x2 .f32 := Host.absf main_arg1
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S262144x128 : Shape := ⟨2, ![262144, 128]⟩
abbrev S65536x2 : Shape := ⟨2, ![65536, 2]⟩
abbrev S8192 : Shape := ⟨1, ![8192]⟩
abbrev S512x512x128 : Shape := ⟨3, ![512, 512, 128]⟩
abbrev S65536x1 : Shape := ⟨2, ![65536, 1]⟩
abbrev S65536 : Shape := ⟨1, ![65536]⟩
abbrev S_ : Shape := ⟨0, ![]⟩
abbrev S512x512x128x1 : Shape := ⟨4, ![512, 512, 128, 1]⟩
abbrev S8192x8192 : Shape := ⟨2, ![8192, 8192]⟩
abbrev S32x32x128 : Shape := ⟨3, ![32, 32, 128]⟩
abbrev S512 : Shape := ⟨1, ![512]⟩
abbrev S512x512 : Shape := ⟨2, ![512, 512]⟩
abbrev S32x32x128x1 : Shape := ⟨4, ![32, 32, 128, 1]⟩
abbrev S32x32x128x2 : Shape := ⟨4, ![32, 32, 128, 2]⟩
abbrev S32x32x16x16 : Shape := ⟨4, ![32, 32, 16, 16]⟩
abbrev S32x16x32x16 : Shape := ⟨4, ![32, 16, 32, 16]⟩
abbrev S512x1 : Shape := ⟨2, ![512, 1]⟩
abbrev S1x512 : Shape := ⟨2, ![1, 512]⟩

abbrev nBuf : Space → Nat
  | .hbm => 28
  | .vmem => 10
  | .smem => 0
  | _ => 0

abbrev bufTy : (tb : Table) → Fin (tcTables nBuf tb) → BufTy
  | .hbm, ⟨0, _⟩ => ⟨S262144x128, .i32⟩
  | .hbm, ⟨1, _⟩ => ⟨S65536x2, .f32⟩
  | .hbm, ⟨2, _⟩ => ⟨S8192, .f32⟩
  | .hbm, ⟨3, _⟩ => ⟨S8192, .f32⟩
  | .hbm, ⟨4, _⟩ => ⟨S512x512x128, .i32⟩
  | .hbm, ⟨5, _⟩ => ⟨S65536x1, .f32⟩
  | .hbm, ⟨6, _⟩ => ⟨S65536, .f32⟩
  | .hbm, ⟨7, _⟩ => ⟨S_, .i32⟩
  | .hbm, ⟨8, _⟩ => ⟨S512x512x128, .i32⟩
  | .hbm, ⟨9, _⟩ => ⟨S512x512x128, .i1⟩
  | .hbm, ⟨10, _⟩ => ⟨S_, .i32⟩
  | .hbm, ⟨11, _⟩ => ⟨S512x512x128, .i32⟩
  | .hbm, ⟨12, _⟩ => ⟨S512x512x128, .i32⟩
  | .hbm, ⟨13, _⟩ => ⟨S512x512x128, .i32⟩
  | .hbm, ⟨14, _⟩ => ⟨S512x512x128x1, .i32⟩
  | .hbm, ⟨15, _⟩ => ⟨S512x512x128, .f32⟩
  | .hbm, ⟨16, _⟩ => ⟨S65536x1, .f32⟩
  | .hbm, ⟨17, _⟩ => ⟨S65536, .f32⟩
  | .hbm, ⟨18, _⟩ => ⟨S_, .i32⟩
  | .hbm, ⟨19, _⟩ => ⟨S512x512x128, .i32⟩
  | .hbm, ⟨20, _⟩ => ⟨S512x512x128, .i1⟩
  | .hbm, ⟨21, _⟩ => ⟨S_, .i32⟩
  | .hbm, ⟨22, _⟩ => ⟨S512x512x128, .i32⟩
  | .hbm, ⟨23, _⟩ => ⟨S512x512x128, .i32⟩
  | .hbm, ⟨24, _⟩ => ⟨S512x512x128, .i32⟩
  | .hbm, ⟨25, _⟩ => ⟨S512x512x128x1, .i32⟩
  | .hbm, ⟨26, _⟩ => ⟨S512x512x128, .f32⟩
  | .hbm, ⟨27, _⟩ => ⟨S8192x8192, .f32⟩
  | .local _ .vmem, ⟨0, _⟩ => ⟨S32x32x128, .f32⟩
  | .local _ .vmem, ⟨1, _⟩ => ⟨S32x32x128, .f32⟩
  | .local _ .vmem, ⟨2, _⟩ => ⟨S32x32x128, .f32⟩
  | .local _ .vmem, ⟨3, _⟩ => ⟨S32x32x128, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512x512, .f32⟩
  | .local _ .vmem, ⟨9, _⟩ => ⟨S512x512, .f32⟩
  | _, _ => ⟨S262144x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S262144x128_S512x512x128 : S262144x128.ShapeCasts S512x512x128
  slices_S65536x2_S65536x1_0_0 : S65536x2.Slices ![0, 0] S65536x1
  shapeCasts_S65536x1_S65536 : S65536x1.ShapeCasts S65536
  bcast_S_S512x512x128 : S_.BroadcastsInDim S512x512x128 (![] : Fin 0 → Fin S512x512x128.rank)
  bcast_S512x512x128_S512x512x128x1_0_1_2 : S512x512x128.BroadcastsInDim S512x512x128x1 (![0, 1, 2] : Fin 3 → Fin S512x512x128x1.rank)
  slices_S65536x2_S65536x1_0_1 : S65536x2.Slices ![0, 1] S65536x1
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  shapeCasts_S32x32x128_S32x32x128x1 : S32x32x128.ShapeCasts S32x32x128x1
  concatenates_S32x32x128x1_S32x32x128x1_S32x32x128x2_d3 : Shape.Concatenates [S32x32x128x1, S32x32x128x1] S32x32x128x2 3
  shapeCasts_S32x32x128x2_S32x32x16x16 : S32x32x128x2.ShapeCasts S32x32x16x16
  transposes_S32x32x16x16_p0_2_1_3_S32x16x32x16 : S32x32x16x16.Transposes [0, 2, 1, 3] S32x16x32x16
  shapeCasts_S32x16x32x16_S512x512 : S32x16x32x16.ShapeCasts S512x512
  inb_S512_S512_0 : ∀ a, (![0] : Fin 1 → Nat) a + S512.size a ≤ S512.size a
  h_S512 : 0 < S512.numel
  shapeCasts_S512_S512x1 : S512.ShapeCasts S512x1
  broadcasts_S512x1_S512x512 : S512x1.Broadcasts S512x512
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  gather_S65536_S512x512x128x1_S512x512x128_n_0_n_n_0_3_1_wf : GatherDims.WF S65536 S512x512x128x1 S512x512x128 [] [0] [] [0] [] 3 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x128.size a ≤ S512x512x128.size a
  hwx0_0 : ∀ i : grid0.Coords, EltTy.bits .f32 = 32 ∨ (Rect.block (s := S512x512x128) S32x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x128.size a ≤ S512x512x128.size a
  hwx0_1 : ∀ i : grid0.Coords, EltTy.bits .f32 = 32 ∨ (Rect.block (s := S512x512x128) S32x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S8192.size a
  hwx0_3 : ∀ i : grid0.Coords, EltTy.bits .f32 = 32 ∨ (Rect.block (s := S8192) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x8192.size a
  hwx0_4 : ∀ i : grid0.Coords, EltTy.bits .f32 = 32 ∨ (Rect.block (s := S8192x8192) S512x512.size (cc0_transform_4 i) (hinb0_4 i)).WholeWords (EltTy.packing .f32)

variable [Facts₀]

def gather_S65536_S512x512x128x1_S512x512x128_n_0_n_n_0_3_1 : GatherDims S65536 S512x512x128x1 S512x512x128 where
  offsetDims := []
  collapsedSliceDims := [0]
  operandBatchingDims := []
  startIndicesBatchingDims := []
  startIndexMap := [0]
  indexVectorDim := 3
  sliceSizes := ![1]
  wf := gather_S65536_S512x512x128x1_S512x512x128_n_0_n_n_0_3_1_wf

abbrev win0_0 : Pipeline.Window sig grid0 :=
  Pipeline.Window.ofSpec (Memref.whole main_v9) S32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S32x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S65536x2 : Shape := ⟨2, ![65536, 2]⟩
abbrev S8192 : Shape := ⟨1, ![8192]⟩
abbrev S_ : Shape := ⟨0, ![]⟩
abbrev S262144x128x1 : Shape := ⟨3, ![262144, 128, 1]⟩
abbrev S262144x128x2 : Shape := ⟨3, ![262144, 128, 2]⟩
abbrev S512x512x16x16 : Shape := ⟨4, ![512, 512, 16, 16]⟩
abbrev S512x16x512x16 : Shape := ⟨4, ![512, 16, 512, 16]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S262144x128, .i32⟩
  | .hbm, ⟨1, _⟩ => ⟨S65536x2, .f32⟩
  | .hbm, ⟨2, _⟩ => ⟨S8192, .f32⟩
  | .hbm, ⟨3, _⟩ => ⟨S8192, .f32⟩
  | .hbm, ⟨4, _⟩ => ⟨S_, .i32⟩
  | .hbm, ⟨5, _⟩ => ⟨S262144x128, .i32⟩
  | .hbm, ⟨6, _⟩ => ⟨S262144x128, .i1⟩
  | .hbm, ⟨7, _⟩ => ⟨S_, .i32⟩
  | .hbm, ⟨8, _⟩ => ⟨S262144x128, .i32⟩
  | .hbm, ⟨9, _⟩ => ⟨S262144x128, .i32⟩
  | .hbm, ⟨10, _⟩ => ⟨S262144x128, .i32⟩
  | .hbm, ⟨11, _⟩ => ⟨S262144x128x1, .i32⟩
  | .hbm, ⟨12, _⟩ => ⟨S262144x128x2, .f32⟩
  | .hbm, ⟨13, _⟩ => ⟨S512x512x16x16, .f32⟩
  | .hbm, ⟨14, _⟩ => ⟨S512x16x512x16, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S1x8192, .f32⟩
  | .hbm, ⟨23, _⟩ => ⟨S8192x8192, .f32⟩
  | .hbm, ⟨24, _⟩ => ⟨S8192x8192, .f32⟩
  | _, _ => ⟨S262144x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  bcast_S262144x128_S262144x128x1_0_1 : S262144x128.BroadcastsInDim S262144x128x1 (![0, 1] : Fin 2 → Fin S262144x128x1.rank)
  shapeCasts_S262144x128x2_S512x512x16x16 : S262144x128x2.ShapeCasts S512x512x16x16
  transposes_S512x512x16x16_S512x16x512x16_0_2_1_3 : S512x512x16x16.Transposes [0, 2, 1, 3] S512x16x512x16
  shapeCasts_S512x16x512x16_S8192x8192 : S512x16x512x16.ShapeCasts S8192x8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  gather_S65536x2_S262144x128x1_S262144x128x2_2_0_n_n_0_2_12_wf : GatherDims.WF S65536x2 S262144x128x1 S262144x128x2 [2] [0] [] [0] [] 2 ![1, 2]

variable [Facts₀]

def gather_S65536x2_S262144x128x1_S262144x128x2_2_0_n_n_0_2_12 : GatherDims S65536x2 S262144x128x1 S262144x128x2 where
  offsetDims := [2]
  collapsedSliceDims := [0]
  operandBatchingDims := []
  startIndicesBatchingDims := []
  startIndexMap := [0]
  indexVectorDim := 2
  sliceSizes := ![1, 2]
  wf := gather_S65536x2_S262144x128x1_S262144x128x2_2_0_n_n_0_2_12_wf

class Facts : Prop extends Facts₀ where

variable [Facts]
-- ==== Proof.Spec.lean ====
/-
  The dequantised weight, as one function of the four argument arrays.

  The weight is an 8192 × 8192 matrix cut into 512 × 512 tiles of 16 × 16 entries. Tile `(a, b)` is decoded from ONE walk,
  row `512·a + b` of `walks`: 128 code words, each naming a row of the 65536 × 2 codebook `lut`, whose two entries are
  laid side by side, so that the walk's 256 decoded numbers fill the tile row-major. Entry `(x, y)` of the tile is therefore
  decoded number `16·x + y`: column `y mod 2` of the codebook row named by step `8·x + y / 2` of the walk. In matrix
  coordinates, entry `(R, C)` has `a = R / 16`, `x = R mod 16`, `b = C / 16`, `y = C mod 16`.

  A code word is read as a signed 32-bit integer; a negative one counts from the end of the codebook (65536 is added), and
  whatever results is clamped into `[0, 65535]` — the reading a lookup gives every index.

  The weight is that decoded number times a row sign and a column sign and one global scale, multiplied in this order:
  `((scale · sign_l[R]) · decoded[R, C]) · sign_r[C]`. Only multiplication and the one literal occur, so the function is
  stated for any float instance.
-/
import Idealize.ShloMosaic.Lib.ValueIdx

noncomputable section

namespace Cert.Trellis

open Idealize.ShloMosaic Idealize.ShloMosaic.ValueIdx

/-- The codebook row a code word names: the word read signed, 65536 added to a negative one, the result clamped into
    `[0, 65535]`. -/
def codeRow (w : BitVec 32) : Fin 65536 :=
  ⟨min (Scalar.select (IntOp.cmpi .slt w 0#32) (IntOp.addi w 65536#32) w).toInt.toNat (65536 - 1), by omega⟩

/-- The walk that decodes the tile holding entry `(R, C)`: tile `(R / 16, C / 16)` of the 512 × 512 tile grid, row-major. -/
def tileOf (i : (⟨2, ![8192, 8192]⟩ : Shape).Idx) : Fin 262144 :=
  ⟨(i 0).val / 16 * 512 + (i 1).val / 16, by have := idx2_lt0 i; have := idx2_lt1 i; omega⟩

/-- The step of that walk whose codebook row holds entry `(R, C)`: decoded number `16·(R mod 16) + C mod 16`, halved. -/
def stepOf (i : (⟨2, ![8192, 8192]⟩ : Shape).Idx) : Fin 128 :=
  ⟨(i 0).val % 16 * 8 + (i 1).val % 16 / 2, by omega⟩

/-- The column of that codebook row: the decoded number's parity, which is `C`'s. -/
def halfOf (i : (⟨2, ![8192, 8192]⟩ : Shape).Idx) : Fin 2 :=
  ⟨(i 1).val % 2, by omega⟩

variable {F : FTy → Type} [FloatOps F]

/-- THE WEIGHT at `(R, C)`: `((scale · sign_l[R]) · lut[codeRow (walks[tile, step]), C mod 2]) · sign_r[C]`, the scale the
    one float literal both programs carry. -/
def weight (walks : IVec ⟨2, ![262144, 128]⟩ 32) (lut : FVec F ⟨2, ![65536, 2]⟩ .f32)
    (sl sr : FVec F ⟨1, ![8192]⟩ .f32) : FVec F ⟨2, ![8192, 8192]⟩ .f32 :=
  fun i => FloatOps.mulf
    (FloatOps.mulf (FloatOps.mulf (FloatOps.ofBits .f32 0x3C343958#32) (sl (ix1 ⟨(i 0).val, idx2_lt0 i⟩)))
      (lut (ix2 (codeRow (walks (ix2 (tileOf i) (stepOf i)))) (halfOf i))))
    (sr (ix1 ⟨(i 1).val, idx2_lt1 i⟩))

end Cert.Trellis

end
-- ==== Proof.LibGatherRead.lean ====
/-
  Two shapes of `stablehlo.gather` read at one result index, for any sizes.

  * A flat table `x : [N]` looked up at an integer array `idx : [A, B, C]` (carried as `[A, B, C, 1]`): result element
    `(a, b, c)` is `x` at the start index `idx[a, b, c, 0]`, read as a signed integer and clamped into `[0, N − 1]`.
  * A table of rows `x : [N, D]` looked up at `idx : [A, B]` (carried as `[A, B, 1]`), each lookup returning a whole row:
    result element `(a, b, d)` is `x` at row `idx[a, b, 0]` (signed, clamped into `[0, N − 1]`) and column `d`.

  In both the operand's axis 0 is collapsed and is the only axis the start index names, so the clamp is the only
  thing between the index word and the row; the second has one offset axis, the row's own.
-/
import Idealize.ShloMosaic.Lib.ValueIdx

noncomputable section

namespace Cert.GatherRead

open Idealize.ShloMosaic Idealize.ShloMosaic.ValueIdx

variable {α : Type}

/-! ## A flat table at a rank-3 array of indices -/

/-- The dimension numbers of a lookup of `[N]` at `[A, B, C, 1]` giving `[A, B, C]`: no offset axis, the operand's one
    axis collapsed and named by the start index, the index vector on the last axis, slices of one element. -/
abbrev flatDims (N A B C : Nat)
    (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

/-- Where result index `(a, b, c)` finds its start index: `[a, b, c, 0]`. -/
abbrev flatIdx {A B C : Nat} (y : (⟨3, ![A, B, C]⟩ : Shape).Idx) : (⟨4, ![A, B, C, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- The flat lookup at `(a, b, c)`: the table at the start index `idx[a, b, c, 0]`, signed and clamped into `[0, N − 1]`. -/
theorem gather_flat_apply {N A B C w : Nat} (hN : 0 < N)
    (wf : GatherDims.WF ⟨1, ![N]⟩ ⟨4, ![A, B, C, 1]⟩ ⟨3, ![A, B, C]⟩ [] [0] [] [0] [] 3 ![1])
    (x : (⟨1, ![N]⟩ : Shape).Idx → α) (idx : IVec ⟨4, ![A, B, C, 1]⟩ w) (y : (⟨3, ![A, B, C]⟩ : Shape).Idx) :
    Host.gather (flatDims N A B C wf) x idx y
      = x (ix1 ⟨min (idx (flatIdx y)).toInt.toNat (N - 1), by omega⟩) := by
  unfold Host.gather
  congr 1
  funext a
  obtain rfl : a = 0 := Subsingleton.elim _ _
  refine Fin.ext ?_
  show (flatDims N A B C wf).start y idx 0 + (flatDims N A B C wf).batchCoord y 0
    + (flatDims N A B C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N A B C wf).startIndexMap from List.mem_singleton.mpr rfl)]
  have hsi : (flatDims N A B C wf).siIdx y ⟨List.idxOf (0 : Fin 1) (flatDims N A B C wf).startIndexMap,
      List.idxOf_lt_length_iff.2 (List.mem_singleton.mpr rfl)⟩ = flatIdx y := by
    funext b; refine Fin.ext ?_
    match b with
    | ⟨0, _⟩ => rfl
    | ⟨1, _⟩ => rfl
    | ⟨2, _⟩ => rfl
    | ⟨3, _⟩ => rfl
  rw [hsi]
  rfl

/-! ## A table of rows at a rank-2 array of indices -/

/-- The dimension numbers of a lookup of `[N, D]` at `[A, B, 1]` giving `[A, B, D]`: the result's last axis is the offset
    axis (the row's columns), the operand's axis 0 collapsed and named by the start index, slices of one whole row. -/
abbrev rowDims (N D A B : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- Where result index `(a, b, d)` finds its start index: `[a, b, 0]`. -/
abbrev rowIdx {A B D : Nat} (y : (⟨3, ![A, B, D]⟩ : Shape).Idx) : (⟨3, ![A, B, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- The row lookup at `(a, b, d)`: the table at row `idx[a, b, 0]` (signed, clamped into `[0, N − 1]`), column `d`. -/
theorem gather_row_apply {N D A B w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (y : (⟨3, ![A, B, D]⟩ : Shape).Idx) :
    Host.gather (rowDims N D A B wf) x idx y
      = x (ix2 ⟨min (idx (rowIdx y)).toInt.toNat (N - 1), by omega⟩ ⟨(y 2).val, (y 2).isLt⟩) := by
  unfold Host.gather
  congr 1
  funext a
  refine Fin.ext ?_
  match a with
  | ⟨0, _⟩ =>
    show (rowDims N D A B wf).start y idx 0 + (rowDims N D A B wf).batchCoord y 0
      + (rowDims N D A B wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D A B wf).startIndexMap from List.mem_singleton.mpr rfl)]
    have hsi : (rowDims N D A B wf).siIdx y ⟨List.idxOf (0 : Fin 2) (rowDims N D A B wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  | ⟨1, _⟩ =>
    show (rowDims N D A B wf).start y idx 1 + (rowDims N D A B wf).batchCoord y 1
      + (rowDims N D A B wf).offCoord y 1 = (y 2).val
    have hs : (rowDims N D A B wf).start y idx 1 = 0 := by
      unfold GatherDims.start
      rw [dif_neg (show (1 : Fin 2) ∉ (rowDims N D A B wf).startIndexMap from
        (by decide : (1 : Fin 2) ∉ [(0 : Fin 2)]))]
    have hk : (1 : Fin 2) ∈ (rowDims N D A B wf).sKept :=
      (GatherDims.mem_sKept _ _).mpr ⟨(by decide : (1 : Fin 2) ∉ [(0 : Fin 2)]), List.not_mem_nil⟩
    rw [hs, GatherDims.batchCoord_eq_zero _ _ _ List.not_mem_nil]
    simp only [Nat.zero_add, Nat.add_zero]
    unfold GatherDims.offCoord
    rw [dif_pos hk]
    rfl

end Cert.GatherRead

end
-- ==== Proof.HostLookup.lean ====
/-
  What the kernel's host side looks up before the region.

  The walks are recast from `[262144, 128]` to `[512, 512, 128]` (walk `512·a + b` becomes tile `(a, b)`), each negative
  word has 65536 added, and the array is given a unit last axis to serve as start indices. Each column of the codebook is
  sliced out and flattened to a table of 65536 entries, and looked up at those indices. So looked-up array `v` holds, at
  `(a, b, s)`, column `v` of the codebook row that step `s` of walk `512·a + b` names.
-/
import proofs.«107242_j42176578847200_2_alg».proof.Proof.Gen.KernelIdeal
import proofs.«107242_j42176578847200_2_alg».proof.Proof.Spec
import proofs.«107242_j42176578847200_2_alg».proof.Proof.LibGatherRead
import Idealize.ShloMosaic.Lib.Pipeline.Value

noncomputable section

namespace Cert.Trellis.Host

open Cert.KernelIdeal Cert.KernelIdeal.Gen
open Idealize.ShloMosaic Idealize.ShloMosaic.ValueIdx Cert.GatherRead Cert.Trellis

variable {F : FTy → Type} [FloatOps F]

/-- The start indices: the walks as `[512, 512, 128]`, negative words lifted by 65536, with a unit last axis. -/
def starts (x0 : IVec S262144x128 32) : IVec S512x512x128x1 32 :=
  broadcastInDim S512x512x128x1 ![0, 1, 2] bcast_S512x512x128_S512x512x128x1_0_1_2
    (select
      (cmpi .slt (shapeCast S512x512x128 x0 shapeCasts_S262144x128_S512x512x128)
        (broadcastInDim S512x512x128 ![] bcast_S_S512x512x128 (constantI S_ 32 0#32)))
      (addi (shapeCast S512x512x128 x0 shapeCasts_S262144x128_S512x512x128)
        (broadcastInDim S512x512x128 ![] bcast_S_S512x512x128 (constantI S_ 32 65536#32)))
      (shapeCast S512x512x128 x0 shapeCasts_S262144x128_S512x512x128))

/-- The codebook's first column as a flat table. -/
def col0 (x1 : FVec F S65536x2 .f32) : FVec F S65536 .f32 :=
  shapeCast S65536 (extractStridedSlice S65536x1 ![0, 0] x1 slices_S65536x2_S65536x1_0_0) shapeCasts_S65536x1_S65536

/-- The codebook's second column as a flat table. -/
def col1 (x1 : FVec F S65536x2 .f32) : FVec F S65536 .f32 :=
  shapeCast S65536 (extractStridedSlice S65536x1 ![0, 1] x1 slices_S65536x2_S65536x1_0_1) shapeCasts_S65536x1_S65536

/-- The first looked-up array. -/
def looked0 (x0 : IVec S262144x128 32) (x1 : FVec F S65536x2 .f32) : FVec F S512x512x128 .f32 :=
  Host.gather gather_S65536_S512x512x128x1_S512x512x128_n_0_n_n_0_3_1 (col0 x1) (starts x0)

/-- The second looked-up array. -/
def looked1 (x0 : IVec S262144x128 32) (x1 : FVec F S65536x2 .f32) : FVec F S512x512x128 .f32 :=
  Host.gather gather_S65536_S512x512x128x1_S512x512x128_n_0_n_n_0_3_1 (col1 x1) (starts x0)

theorem col0_apply (x1 : FVec F S65536x2 .f32) (r : Fin 65536) : col0 x1 (ix1 r) = x1 (ix2 r (0 : Fin 2)) := by
  unfold col0
  rw [shapeCast_apply _ shapeCasts_S65536x1_S65536 (ix1 r) (ix2 r (0 : Fin 1))
    (by rw [Shape.rowMajor_val_two, Shape.rowMajor_val_one]; show r.val * 1 + 0 = r.val; omega)]
  exact extractStridedSlice_apply _ x1 _ _ (ix2 r (0 : Fin 2)) (fun a => match a with
    | ⟨0, _⟩ => by show r.val = 0 + r.val; omega
    | ⟨1, _⟩ => rfl)

theorem col1_apply (x1 : FVec F S65536x2 .f32) (r : Fin 65536) : col1 x1 (ix1 r) = x1 (ix2 r (1 : Fin 2)) := by
  unfold col1
  rw [shapeCast_apply _ shapeCasts_S65536x1_S65536 (ix1 r) (ix2 r (0 : Fin 1))
    (by rw [Shape.rowMajor_val_two, Shape.rowMajor_val_one]; show r.val * 1 + 0 = r.val; omega)]
  exact extractStridedSlice_apply _ x1 _ _ (ix2 r (1 : Fin 2)) (fun a => match a with
    | ⟨0, _⟩ => by show r.val = 0 + r.val; omega
    | ⟨1, _⟩ => rfl)

/-- The start index of `(a, b, s)`: step `s` of walk `512·a + b`, lifted by 65536 when negative. -/
theorem starts_apply (x0 : IVec S262144x128 32) (a b : Fin 512) (s : Fin 128) :
    starts x0 (flatIdx (ix3 a b s))
      = Scalar.select (IntOp.cmpi .slt (x0 (ix2 (⟨a.val * 512 + b.val, by omega⟩ : Fin 262144) s)) 0#32)
          (IntOp.addi (x0 (ix2 (⟨a.val * 512 + b.val, by omega⟩ : Fin 262144) s)) 65536#32)
          (x0 (ix2 (⟨a.val * 512 + b.val, by omega⟩ : Fin 262144) s)) := by
  unfold starts
  rw [broadcastInDim_apply _ bcast_S512x512x128_S512x512x128x1_0_1_2 _ (flatIdx (ix3 a b s)) (ix3 a b s)
    (fun d => match d with
      | ⟨0, _⟩ => by show a.val = if (512 : Nat) = 1 then 0 else a.val; rw [if_neg (by decide)]
      | ⟨1, _⟩ => by show b.val = if (512 : Nat) = 1 then 0 else b.val; rw [if_neg (by decide)]
      | ⟨2, _⟩ => by show s.val = if (128 : Nat) = 1 then 0 else s.val; rw [if_neg (by decide)])]
  have hW : shapeCast S512x512x128 x0 shapeCasts_S262144x128_S512x512x128 (ix3 a b s)
      = x0 (ix2 (⟨a.val * 512 + b.val, by omega⟩ : Fin 262144) s) :=
    shapeCast_apply x0 _ _ _ (by rw [Shape.rowMajor_val_two, Shape.rowMajor_val_three]; rfl)
  show Scalar.select
      (IntOp.cmpi .slt (shapeCast S512x512x128 x0 shapeCasts_S262144x128_S512x512x128 (ix3 a b s)) 0#32)
      (IntOp.addi (shapeCast S512x512x128 x0 shapeCasts_S262144x128_S512x512x128 (ix3 a b s)) 65536#32)
      (shapeCast S512x512x128 x0 shapeCasts_S262144x128_S512x512x128 (ix3 a b s)) = _
  rw [hW]

/-- The first looked-up array at `(a, b, s)`: the first entry of the codebook row that step `s` of walk `512·a + b` names. -/
theorem looked0_apply (x0 : IVec S262144x128 32) (x1 : FVec F S65536x2 .f32) (a b : Fin 512) (s : Fin 128) :
    looked0 x0 x1 (ix3 a b s)
      = x1 (ix2 (codeRow (x0 (ix2 (⟨a.val * 512 + b.val, by omega⟩ : Fin 262144) s))) (0 : Fin 2)) := by
  unfold looked0
  show Host.gather (flatDims 65536 512 512 128 gather_S65536_S512x512x128x1_S512x512x128_n_0_n_n_0_3_1_wf)
    (col0 x1) (starts x0) (ix3 a b s) = _
  rw [gather_flat_apply (by decide)]
  refine (col0_apply x1 _).trans (congrArg x1 (funext fun d => Fin.ext ?_))
  match d with
  | ⟨0, _⟩ =>
    show min (BitVec.toInt (starts x0 (flatIdx (ix3 a b s)))).toNat (65536 - 1) = _
    rw [starts_apply]
    rfl
  | ⟨1, _⟩ => rfl

/-- The second looked-up array at `(a, b, s)`: the second entry of that codebook row. -/
theorem looked1_apply (x0 : IVec S262144x128 32) (x1 : FVec F S65536x2 .f32) (a b : Fin 512) (s : Fin 128) :
    looked1 x0 x1 (ix3 a b s)
      = x1 (ix2 (codeRow (x0 (ix2 (⟨a.val * 512 + b.val, by omega⟩ : Fin 262144) s))) (1 : Fin 2)) := by
  unfold looked1
  show Host.gather (flatDims 65536 512 512 128 gather_S65536_S512x512x128x1_S512x512x128_n_0_n_n_0_3_1_wf)
    (col1 x1) (starts x0) (ix3 a b s) = _
  rw [gather_flat_apply (by decide)]
  refine (col1_apply x1 _).trans (congrArg x1 (funext fun d => Fin.ext ?_))
  match d with
  | ⟨0, _⟩ =>
    show min (BitVec.toInt (starts x0 (flatIdx (ix3 a b s)))).toNat (65536 - 1) = _
    rw [starts_apply]
    rfl
  | ⟨1, _⟩ => rfl

end Cert.Trellis.Host

end
-- ==== Proof.BlockLayout.lean ====
/-
  How one 512 × 512 block of the weight is laid out from its two decoded arrays.

  A block is 32 × 32 tiles of 16 × 16 entries. Its two inputs `x0, x1 : [32, 32, 128]` hold, per tile `(a, b)` and step
  `s`, the first and the second entry of the codebook row that step names. The body interleaves them on a new last axis
  (`[32, 32, 128, 2]`: position `2·s + v` of a tile's 256 numbers is entry `v` of step `s`), recasts that as
  `[32, 32, 16, 16]` (a tile's 256 numbers row-major), swaps the two middle axes and recasts as `[512, 512]`. So block
  entry `(p, q)` is entry `(p mod 16, q mod 16)` of tile `(p / 16, q / 16)`: number `16·(p mod 16) + q mod 16` of that
  tile, which is entry `q mod 2` of step `8·(p mod 16) + (q mod 16) / 2`.

  Also here: a 512-vector laid down the rows, or along the columns, of a 512 × 512 array.
-/
import Idealize.ShloMosaic.Lib.ValueIdx
import Idealize.ShloMosaic.Lib.ValueLayout
import Idealize.ShloMosaic.Lib.Pipeline.Value

noncomputable section

namespace Cert.Trellis.Block

open Idealize.ShloMosaic Idealize.ShloMosaic.ValueIdx

variable {α : Type}

abbrev T3 : Shape := ⟨3, ![32, 32, 128]⟩
abbrev T4u : Shape := ⟨4, ![32, 32, 128, 1]⟩
abbrev T4p : Shape := ⟨4, ![32, 32, 128, 2]⟩
abbrev T4t : Shape := ⟨4, ![32, 32, 16, 16]⟩
abbrev T4s : Shape := ⟨4, ![32, 16, 32, 16]⟩
abbrev B2 : Shape := ⟨2, ![512, 512]⟩

/-- A `[32, 32, 128]` array given a unit last axis reads, at `(a, b, s, 0)`, the array at `(a, b, s)`. -/
theorem unitAxis_apply (x : T3.Idx → α) (h : T3.ShapeCasts T4u) (a b : Fin 32) (s : Fin 128) (u : Fin 1) :
    shapeCast T4u x h (ix4 a b s u) = x (ix3 a b s) :=
  shapeCast_apply x h _ _ (by
    rw [Shape.rowMajor_val_three, Shape.rowMajor_val_four]
    show (a.val * 32 + b.val) * 128 + s.val = ((a.val * 32 + b.val) * 128 + s.val) * 1 + u.val
    omega)

/-- THE INTERLEAVING: two `[32, 32, 128]` arrays joined on a new last axis read, at `(a, b, s, v)`, the first at
    `(a, b, s)` when `v = 0` and the second when `v = 1`. -/
theorem interleave_apply (x0 x1 : T3.Idx → α) (h : T3.ShapeCasts T4u)
    (hc : Shape.Concatenates [T4u, T4u] T4p 3) (a b : Fin 32) (s : Fin 128) (v : Fin 2) :
    concatenate T4p 3 [⟨T4u, shapeCast T4u x0 h⟩, ⟨T4u, shapeCast T4u x1 h⟩] hc (ix4 a b s v)
      = (if v.val = 0 then x0 else x1) (ix3 a b s) := by
  match v with
  | ⟨0, _⟩ =>
    rw [if_pos rfl]
    refine (concatenate_pair_apply_left (3 : Fin T4p.rank) _ _ hc _ rfl (ix4 a b s (0 : Fin 1)) (fun d => ?_)).trans
      (unitAxis_apply x0 h a b s 0)
    match d with
    | ⟨0, _⟩ => rfl
    | ⟨1, _⟩ => rfl
    | ⟨2, _⟩ => rfl
    | ⟨3, _⟩ => rfl
  | ⟨1, _⟩ =>
    rw [if_neg (show ¬ (1 : Nat) = 0 from Nat.one_ne_zero)]
    refine (concatenate_pair_apply_right (3 : Fin T4p.rank) _ _ hc _ rfl rfl (ix4 a b s (0 : Fin 1)) (fun d hd => ?_) rfl).trans
      (unitAxis_apply x1 h a b s 0)
    match d with
    | ⟨0, _⟩ => rfl
    | ⟨1, _⟩ => rfl
    | ⟨2, _⟩ => rfl
    | ⟨3, _⟩ => exact absurd rfl hd

/-- THE BLOCK'S LAYOUT: the interleaved array recast as tiles, the middle axes swapped, recast as `[512, 512]`, read at
    `(p, q)`: entry `q mod 2` of step `8·(p mod 16) + (q mod 16) / 2` of tile `(p / 16, q / 16)`. -/
theorem block_apply (x0 x1 : T3.Idx → α) (h : T3.ShapeCasts T4u) (hc : Shape.Concatenates [T4u, T4u] T4p 3)
    (ht : T4p.ShapeCasts T4t) (hs : T4t.Transposes [0, 2, 1, 3] T4s) (hb : T4s.ShapeCasts B2) (p q : Fin 512) :
    shapeCast B2 (transpose T4s [0, 2, 1, 3]
        (shapeCast T4t (concatenate T4p 3 [⟨T4u, shapeCast T4u x0 h⟩, ⟨T4u, shapeCast T4u x1 h⟩] hc) ht) hs) hb (ix2 p q)
      = (if q.val % 2 = 0 then x0 else x1)
          (ix3 ⟨p.val / 16, by omega⟩ ⟨q.val / 16, by omega⟩ ⟨p.val % 16 * 8 + q.val % 16 / 2, by omega⟩) := by
  have hp := p.isLt
  have hq := q.isLt
  -- the recast to [512, 512]: row-major position p·512 + q in [32, 16, 32, 16]
  rw [shapeCast_apply _ hb (ix2 p q)
    (ix4 (⟨p.val / 16, by omega⟩ : Fin 32) (⟨p.val % 16, by omega⟩ : Fin 16) (⟨q.val / 16, by omega⟩ : Fin 32)
      (⟨q.val % 16, by omega⟩ : Fin 16))
    (by rw [Shape.rowMajor_val_four, Shape.rowMajor_val_two]
        show ((p.val / 16 * 16 + p.val % 16) * 32 + q.val / 16) * 16 + q.val % 16 = p.val * 512 + q.val
        omega)]
  -- the swap of the middle axes
  rw [transpose_apply [0, 2, 1, 3] _ hs _
    (ix4 (⟨p.val / 16, by omega⟩ : Fin 32) (⟨q.val / 16, by omega⟩ : Fin 32) (⟨p.val % 16, by omega⟩ : Fin 16)
      (⟨q.val % 16, by omega⟩ : Fin 16))
    (fun d => match d with
      | ⟨0, _⟩ => rfl
      | ⟨1, _⟩ => rfl
      | ⟨2, _⟩ => rfl
      | ⟨3, _⟩ => rfl)]
  -- the recast of a tile's 256 numbers as 128 pairs
  rw [shapeCast_apply _ ht _
    (ix4 (⟨p.val / 16, by omega⟩ : Fin 32) (⟨q.val / 16, by omega⟩ : Fin 32)
      (⟨p.val % 16 * 8 + q.val % 16 / 2, by omega⟩ : Fin 128) (⟨q.val % 2, by omega⟩ : Fin 2))
    (by rw [Shape.rowMajor_val_four, Shape.rowMajor_val_four]
        show ((p.val / 16 * 32 + q.val / 16) * 128 + (p.val % 16 * 8 + q.val % 16 / 2)) * 2 + q.val % 2
          = ((p.val / 16 * 32 + q.val / 16) * 16 + p.val % 16) * 16 + q.val % 16
        omega)]
  exact interleave_apply x0 x1 h hc _ _ _ _

/-- A 512-vector made a column and spread over the columns reads, at `(p, q)`, the vector at `p`. -/
theorem rows_apply (u : (⟨1, ![512]⟩ : Shape).Idx → α) (h : (⟨1, ![512]⟩ : Shape).ShapeCasts ⟨2, ![512, 1]⟩)
    (hb : (⟨2, ![512, 1]⟩ : Shape).Broadcasts B2) (p q : Fin 512) :
    broadcastTo B2 (shapeCast ⟨2, ![512, 1]⟩ u h) hb (ix2 p q) = u (ix1 p) := by
  rw [broadcastTo_apply _ hb (ix2 p q) (ix2 p (0 : Fin 1)) (fun d => match d with
    | ⟨0, _⟩ => rfl
    | ⟨1, _⟩ => rfl)]
  exact shapeCast_apply u h _ _ (by
    rw [Shape.rowMajor_val_one, Shape.rowMajor_val_two]
    show p.val = p.val * 1 + 0
    omega)

/-- A 512-vector made a row and spread over the rows reads, at `(p, q)`, the vector at `q`. -/
theorem cols_apply (u : (⟨1, ![512]⟩ : Shape).Idx → α) (h : (⟨1, ![512]⟩ : Shape).ShapeCasts ⟨2, ![1, 512]⟩)
    (hb : (⟨2, ![1, 512]⟩ : Shape).Broadcasts B2) (p q : Fin 512) :
    broadcastTo B2 (shapeCast ⟨2, ![1, 512]⟩ u h) hb (ix2 p q) = u (ix1 q) := by
  rw [broadcastTo_1b_ab_apply _ hb p q]
  exact shapeCast_a_1a_apply u h 0 q

end Cert.Trellis.Block

end
-- ==== Proof.KernelPayload.lean ====
/-
  The body's one stored value, read at a block entry.

  At `(p, q)` of the 512 × 512 block the body multiplies, in this order: the scale times the row sign at `p`; the block's
  decoded number at `(p, q)` — entry `q mod 2` of step `8·(p mod 16) + (q mod 16) / 2` of tile `(p / 16, q / 16)`, read
  from the first looked-up block when `q` is even and from the second when odd —; and the column sign at `q`.
-/
import proofs.«107242_j42176578847200_2_alg».proof.Proof.Gen.KernelIdeal.Skeleton
import proofs.«107242_j42176578847200_2_alg».proof.Proof.BlockLayout

noncomputable section

namespace Cert.Trellis.Body

open Cert.KernelIdeal Cert.KernelIdeal.Gen
open Idealize.ShloMosaic Idealize.ShloMosaic.ValueIdx Cert.Trellis.Block

variable {F : FTy → Type} [FloatOps F]

/-- A product of two float vectors read at an index, at any float instance. -/
theorem mulf_ix {s : Shape} {φ : FTy} (a b : FVec F s φ) (i : s.Idx) : mulf a b i = FloatOps.mulf (a i) (b i) := rfl

/-- THE PAYLOAD AT `(p, q)`. -/
theorem payload_apply (x0 x1 : Vec F S32x32x128 .f32) (x2 x3 : Vec F S512 .f32) (p q : Fin 512) :
    k0_pay1 x0 x1 x2 x3 (ix2 p q)
      = FloatOps.mulf
          (FloatOps.mulf (FloatOps.mulf (FloatOps.ofBits .f32 0x3C343958#32) (x2 (ix1 p)))
            ((if q.val % 2 = 0 then x0 else x1)
              (ix3 ⟨p.val / 16, by omega⟩ ⟨q.val / 16, by omega⟩ ⟨p.val % 16 * 8 + q.val % 16 / 2, by omega⟩)))
          (x3 (ix1 q)) := by
  unfold k0_pay1
  dsimp only
  rw [shapeCast_self x0, shapeCast_self x1, mulf_ix, mulf_ix, rows_apply, cols_apply, block_apply, mulf_ix]
  rfl

end Cert.Trellis.Body

end
-- ==== Proof.BlockEntry.lean ====
/-
  One entry of one block is the weight's entry.

  Block `(ti, tj)` of the 16 × 16 grid covers rows `512·ti …` and columns `512·tj …` of the weight. The body is handed
  tiles `32·ti …`, `32·tj …` of the two looked-up arrays and rows `512·ti …`, columns `512·tj …` of the two sign vectors.
  With `R = 512·ti + p` and `C = 512·tj + q`: `R / 16 = 32·ti + p / 16`, `R mod 16 = p mod 16`, and the same for `C`,
  so the tile, step and column the body reads at `(p, q)` are the ones the weight names at `(R, C)`.
-/
import proofs.«107242_j42176578847200_2_alg».proof.Proof.HostLookup
import proofs.«107242_j42176578847200_2_alg».proof.Proof.KernelPayload

noncomputable section

namespace Cert.Trellis.Entry

open Cert.KernelIdeal Cert.KernelIdeal.Gen
open Idealize.ShloMosaic Idealize.ShloMosaic.ValueIdx Cert.Trellis Cert.Trellis.Host Cert.Trellis.Body

variable {F : FTy → Type} [FloatOps F]

/-- Equal walk, step and column give the same codebook entry. -/
theorem code_congr (walks : IVec S262144x128 32) (lut : FVec F S65536x2 .f32) :
    ∀ (T T' : Fin 262144) (S S' : Fin 128) (H H' : Fin 2), T = T' → S = S' → H = H' →
      lut (ix2 (codeRow (walks (ix2 T S))) H) = lut (ix2 (codeRow (walks (ix2 T' S'))) H') := by
  rintro _ _ _ _ _ _ rfl rfl rfl; rfl

/-- THE BODY'S VALUE AT `(p, q)` of block `(ti, tj)` is the weight at `(512·ti + p, 512·tj + q)`, when the four blocks it
    is handed are the looked-up arrays' tiles `32·ti …`, `32·tj …` and the signs' rows `512·ti …`, columns `512·tj …`. -/
theorem entry_eq (walks : IVec S262144x128 32) (lut : FVec F S65536x2 .f32) (sl sr : FVec F S8192 .f32)
    (ti tj : Nat) (hti : ti ≤ 15) (htj : tj ≤ 15)
    (x0 x1 : Vec F S32x32x128 .f32) (x2 x3 : Vec F S512 .f32)
    (h0 : ∀ (a b : Fin 32) (s : Fin 128), x0 (ix3 a b s)
      = looked0 walks lut (ix3 (⟨ti * 32 + a.val, by omega⟩ : Fin 512) (⟨tj * 32 + b.val, by omega⟩ : Fin 512) s))
    (h1 : ∀ (a b : Fin 32) (s : Fin 128), x1 (ix3 a b s)
      = looked1 walks lut (ix3 (⟨ti * 32 + a.val, by omega⟩ : Fin 512) (⟨tj * 32 + b.val, by omega⟩ : Fin 512) s))
    (h2 : ∀ p : Fin 512, x2 (ix1 p) = sl (ix1 (⟨ti * 512 + p.val, by omega⟩ : Fin 8192)))
    (h3 : ∀ q : Fin 512, x3 (ix1 q) = sr (ix1 (⟨tj * 512 + q.val, by omega⟩ : Fin 8192)))
    (p q : Fin 512) :
    k0_pay1 x0 x1 x2 x3 (ix2 p q)
      = weight walks lut sl sr
          (ix2 (⟨ti * 512 + p.val, by omega⟩ : Fin 8192) (⟨tj * 512 + q.val, by omega⟩ : Fin 8192)) := by
  have hp := p.isLt
  have hq := q.isLt
  rw [payload_apply, h2, h3]
  unfold weight
  have hmid : (if q.val % 2 = 0 then x0 else x1)
        (ix3 ⟨p.val / 16, by omega⟩ ⟨q.val / 16, by omega⟩ ⟨p.val % 16 * 8 + q.val % 16 / 2, by omega⟩)
      = lut (ix2 (codeRow (walks (ix2
          (tileOf (ix2 (⟨ti * 512 + p.val, by omega⟩ : Fin 8192) (⟨tj * 512 + q.val, by omega⟩ : Fin 8192)))
          (stepOf (ix2 (⟨ti * 512 + p.val, by omega⟩ : Fin 8192) (⟨tj * 512 + q.val, by omega⟩ : Fin 8192))))))
          (halfOf (ix2 (⟨ti * 512 + p.val, by omega⟩ : Fin 8192) (⟨tj * 512 + q.val, by omega⟩ : Fin 8192)))) := by
    by_cases hq2 : q.val % 2 = 0
    · rw [if_pos hq2, h0, looked0_apply]
      exact code_congr walks lut _ _ _ _ _ _
        (Fin.ext (by
          show (ti * 32 + p.val / 16) * 512 + (tj * 32 + q.val / 16)
            = (ti * 512 + p.val) / 16 * 512 + (tj * 512 + q.val) / 16
          omega))
        (Fin.ext (by
          show p.val % 16 * 8 + q.val % 16 / 2 = (ti * 512 + p.val) % 16 * 8 + (tj * 512 + q.val) % 16 / 2
          omega))
        (Fin.ext (by
          show 0 = (tj * 512 + q.val) % 2
          omega))
    · rw [if_neg hq2, h1, looked1_apply]
      exact code_congr walks lut _ _ _ _ _ _
        (Fin.ext (by
          show (ti * 32 + p.val / 16) * 512 + (tj * 32 + q.val / 16)
            = (ti * 512 + p.val) / 16 * 512 + (tj * 512 + q.val) / 16
          omega))
        (Fin.ext (by
          show p.val % 16 * 8 + q.val % 16 / 2 = (ti * 512 + p.val) % 16 * 8 + (tj * 512 + q.val) % 16 / 2
          omega))
        (Fin.ext (by
          show 1 = (tj * 512 + q.val) % 2
          omega))
  rw [hmid]

end Cert.Trellis.Entry

end
-- ==== Proof.KernelValue.lean ====
/-
  The kernel's result array is the weight.

  The region finds the two looked-up arrays in its first two windows' arrays (the host operations before it wrote them)
  and the two sign vectors in the next two. Grid point `t`, at block `(ti, tj)`, is handed tiles `32·ti …`, `32·tj …` of the
  looked-up arrays and rows `512·ti …`, columns `512·tj …` of the signs, and writes back block `(ti, tj)` of the result; what
  it writes is that block of the weight, entry by entry. The 256 blocks tile the 8192 × 8192 array — entry `(R, C)` lies in
  block `(R / 512, C / 512)`, which point `16·(R / 512) + C / 512` writes — so after the run the whole array is the weight.
-/
import proofs.«107242_j42176578847200_2_alg».proof.Proof.Gen.KernelIdeal.Value
import proofs.«107242_j42176578847200_2_alg».proof.Proof.BlockEntry
import Idealize.ShloMosaic.Lib.StableHlo.Run

noncomputable section

namespace Cert.Trellis.Kernel

open Cert.KernelIdeal Cert.KernelIdeal.Gen Idealize.ShloMosaic Idealize.ShloMosaic.TcCoe Idealize.SL.Sem
open Idealize.ShloMosaic.StableHlo
open Idealize.ShloMosaic.ValueIdx Cert.Trellis Cert.Trellis.Host Cert.Trellis.Entry
open Idealize.ShloMosaic.Pipeline (Dat)

variable {F : FTy → Type} [FloatOps F]
variable (m : (ℓ : Loc nD τ sig) → Buf (Elt F) ℓ) (ρ : Dev nD → PrngReg)

/-! ## What the region finds -/

/-- Window 0's array, as the region finds it, is the first looked-up array. -/
theorem V_looked0 (c : Dev nD) :
    (V m c main_v9 : S512x512x128.Idx → F .f32) = looked0 (m ((c : Thread nD τ).loc main_arg0)) (m ((c : Thread nD τ).loc main_arg1)) := by
  dsimp only [V, hostOps0]
  after_results
  rfl

/-- Window 1's array, as the region finds it, is the second looked-up array. -/
theorem V_looked1 (c : Dev nD) :
    (V m c main_v18 : S512x512x128.Idx → F .f32) = looked1 (m ((c : Thread nD τ).loc main_arg0)) (m ((c : Thread nD τ).loc main_arg1)) := by
  dsimp only [V, hostOps0]
  after_results
  rfl

/-! ## The grid's index maps -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At every grid point the two looked-up windows sit at the output's block indices on their first two axes and at 0 on
    the third, the row signs at the output's row block, the column signs at its column block; both are at most 15. -/
theorem idx_facts : ∀ t : Fin cfg0.N,
    win0_0.index t (0 : Fin 3) = win0_4.index t (0 : Fin 2) ∧ win0_0.index t (1 : Fin 3) = win0_4.index t (1 : Fin 2)
    ∧ win0_0.index t (2 : Fin 3) = 0
    ∧ win0_1.index t (0 : Fin 3) = win0_4.index t (0 : Fin 2) ∧ win0_1.index t (1 : Fin 3) = win0_4.index t (1 : Fin 2)
    ∧ win0_1.index t (2 : Fin 3) = 0
    ∧ win0_2.index t (0 : Fin 1) = win0_4.index t (0 : Fin 2)
    ∧ win0_3.index t (0 : Fin 1) = win0_4.index t (1 : Fin 2)
    ∧ win0_4.index t (0 : Fin 2) ≤ 15 ∧ win0_4.index t (1 : Fin 2) ≤ 15 :=
  (by decide +kernel : ∀ t : Fin grid0.N, _)

/-- The grid is walked row-major: point `t` writes block `(t / 16, t mod 16)`. -/
theorem idx_out : ∀ t : Fin cfg0.N,
    win0_4.index t (0 : Fin 2) = t.val / 16 ∧ win0_4.index t (1 : Fin 2) = t.val % 16 :=
  (by decide +kernel : ∀ t : Fin grid0.N, _)

/-! ## The four blocks a point is handed -/

theorem blk0 (c : Dev nD) (t : Fin cfg0.N) (ti tj : Nat) (e0 : win0_0.index t (0 : Fin 3) = ti)
    (e1 : win0_0.index t (1 : Fin 3) = tj) (e2 : win0_0.index t (2 : Fin 3) = 0) (hti : ti ≤ 15) (htj : tj ≤ 15)
    (a b : Fin 32) (s : Fin 128) :
    iblk m c 0 t (ix3 a b s) = looked0 (m ((c : Thread nD τ).loc main_arg0)) (m ((c : Thread nD τ).loc main_arg1))
      (ix3 (⟨ti * 32 + a.val, by omega⟩ : Fin 512) (⟨tj * 32 + b.val, by omega⟩ : Fin 512) s) := by
  unfold iblk
  show V m c main_v9 (((cfg0.win 0).blk t).view.emb (ix3 a b s)) = _
  rw [V_looked0]
  refine congrArg _ (funext fun d => Fin.ext ?_)
  match d with
  | ⟨0, _⟩ => show win0_0.index t (0 : Fin 3) * 32 + 1 * a.val = ti * 32 + a.val; rw [e0]; omega
  | ⟨1, _⟩ => show win0_0.index t (1 : Fin 3) * 32 + 1 * b.val = tj * 32 + b.val; rw [e1]; omega
  | ⟨2, _⟩ => show win0_0.index t (2 : Fin 3) * 128 + 1 * s.val = s.val; rw [e2]; omega

theorem blk1 (c : Dev nD) (t : Fin cfg0.N) (ti tj : Nat) (e0 : win0_1.index t (0 : Fin 3) = ti)
    (e1 : win0_1.index t (1 : Fin 3) = tj) (e2 : win0_1.index t (2 : Fin 3) = 0) (hti : ti ≤ 15) (htj : tj ≤ 15)
    (a b : Fin 32) (s : Fin 128) :
    iblk m c 1 t (ix3 a b s) = looked1 (m ((c : Thread nD τ).loc main_arg0)) (m ((c : Thread nD τ).loc main_arg1))
      (ix3 (⟨ti * 32 + a.val, by omega⟩ : Fin 512) (⟨tj * 32 + b.val, by omega⟩ : Fin 512) s) := by
  unfold iblk
  show V m c main_v18 (((cfg0.win 1).blk t).view.emb (ix3 a b s)) = _
  rw [V_looked1]
  refine congrArg _ (funext fun d => Fin.ext ?_)
  match d with
  | ⟨0, _⟩ => show win0_1.index t (0 : Fin 3) * 32 + 1 * a.val = ti * 32 + a.val; rw [e0]; omega
  | ⟨1, _⟩ => show win0_1.index t (1 : Fin 3) * 32 + 1 * b.val = tj * 32 + b.val; rw [e1]; omega
  | ⟨2, _⟩ => show win0_1.index t (2 : Fin 3) * 128 + 1 * s.val = s.val; rw [e2]; omega

theorem blk2 (c : Dev nD) (t : Fin cfg0.N) (ti : Nat) (e0 : win0_2.index t (0 : Fin 1) = ti) (hti : ti ≤ 15)
    (p : Fin 512) :
    iblk m c 2 t (ix1 p) = m ((c : Thread nD τ).loc main_arg2) (ix1 (⟨ti * 512 + p.val, by omega⟩ : Fin 8192)) := by
  unfold iblk
  show V m c main_arg2 (((cfg0.win 2).blk t).view.emb (ix1 p)) = _
  rw [V_main_arg2]
  refine congrArg _ (funext fun d => Fin.ext ?_)
  match d with
  | ⟨0, _⟩ => show win0_2.index t (0 : Fin 1) * 512 + 1 * p.val = ti * 512 + p.val; rw [e0]; omega

theorem blk3 (c : Dev nD) (t : Fin cfg0.N) (tj : Nat) (e0 : win0_3.index t (0 : Fin 1) = tj) (htj : tj ≤ 15)
    (q : Fin 512) :
    iblk m c 3 t (ix1 q) = m ((c : Thread nD τ).loc main_arg3) (ix1 (⟨tj * 512 + q.val, by omega⟩ : Fin 8192)) := by
  unfold iblk
  show V m c main_arg3 (((cfg0.win 3).blk t).view.emb (ix1 q)) = _
  rw [V_main_arg3]
  refine congrArg _ (funext fun d => Fin.ext ?_)
  match d with
  | ⟨0, _⟩ => show win0_3.index t (0 : Fin 1) * 512 + 1 * q.val = tj * 512 + q.val; rw [e0]; omega

/-! ## What a point writes back, and the whole array -/

/-- WHAT POINT `t` WRITES BACK is block `t` of the weight of the argument arrays. -/
theorem flushed_eq (c : Dev nD) (t : Fin cfg0.N) :
    (dats m 0 c).flushed 4 t = ((cfg0.win 4).blk t).view.read (Elt F) (weight (m ((c : Thread nD τ).loc main_arg0)) (m ((c : Thread nD τ).loc main_arg1)) (m ((c : Thread nD τ).loc main_arg2)) (m ((c : Thread nD τ).loc main_arg3))) := by
  rw [Cert.KernelIdeal.Value.flushed4]
  unfold out0_4
  rw [View.canon_unit_zero hz2]
  simp only [View.ld_unit_zero (S := S32x32x128) hz3, View.ld_unit_zero (S := S512) hz1]
  obtain ⟨a0, a1, a2, b0, b1, b2, c0, d0, l0, l1⟩ := idx_facts t
  funext j
  obtain ⟨p, q, rfl⟩ : ∃ (p q : Fin 512), j = ix2 p q := ⟨j 0, j 1, eq_ix2 j⟩
  show k0_pay1 (iblk m c 0 t) (iblk m c 1 t) (iblk m c 2 t) (iblk m c 3 t) (ix2 p q)
    = (weight (m ((c : Thread nD τ).loc main_arg0)) (m ((c : Thread nD τ).loc main_arg1)) (m ((c : Thread nD τ).loc main_arg2)) (m ((c : Thread nD τ).loc main_arg3))) (((cfg0.win 4).blk t).view.emb (ix2 p q))
  refine (entry_eq (m ((c : Thread nD τ).loc main_arg0)) (m ((c : Thread nD τ).loc main_arg1)) (m ((c : Thread nD τ).loc main_arg2)) (m ((c : Thread nD τ).loc main_arg3))
    (win0_4.index t (0 : Fin 2)) (win0_4.index t (1 : Fin 2)) l0 l1
    (iblk m c 0 t) (iblk m c 1 t) (iblk m c 2 t) (iblk m c 3 t)
    (fun a b s => blk0 m c t (win0_4.index t (0 : Fin 2)) (win0_4.index t (1 : Fin 2)) a0 a1 a2 l0 l1 a b s)
    (fun a b s => blk1 m c t (win0_4.index t (0 : Fin 2)) (win0_4.index t (1 : Fin 2)) b0 b1 b2 l0 l1 a b s)
    (fun p => blk2 m c t (win0_4.index t (0 : Fin 2)) c0 l0 p)
    (fun q => blk3 m c t (win0_4.index t (1 : Fin 2)) d0 l1 q) p q).trans ?_
  refine congrArg _ (funext fun d => Fin.ext ?_)
  match d with
  | ⟨0, _⟩ =>
    show win0_4.index t (0 : Fin 2) * 512 + p.val = win0_4.index t (0 : Fin 2) * 512 + 1 * p.val
    omega
  | ⟨1, _⟩ =>
    show win0_4.index t (1 : Fin 2) * 512 + q.val = win0_4.index t (1 : Fin 2) * 512 + 1 * q.val
    omega

/-- An index of the result is in point `t`'s block iff each coordinate is in the block's range on its axis. -/
theorem mem_blk (t : Fin cfg0.N) (i : S8192x8192.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v19).slice (win0_4.rect t)).set ↔ _
  rw [View.set_slice_whole, Rect.mem_set_unit]
  exact Iff.rfl

/-- THE BLOCKS TILE THE RESULT: entry `(R, C)` lies in the block of the point at `(R / 512, C / 512)`. -/
theorem cover (i : S8192x8192.Idx) :
    ∃ t : Fin cfg0.N, (cfg0.win 4).flush t = true ∧ i ∈ ((cfg0.win 4).blk t).view.set := by
  have hi0 : (i 0).val < 8192 := idx2_lt0 i
  have hi1 : (i 1).val < 8192 := idx2_lt1 i
  have hN : (i 0).val / 512 * 16 + (i 1).val / 512 < cfg0.N := by
    show _ < grid0.N
    rw [N_0]
    omega
  obtain ⟨t, ht⟩ : ∃ t : Fin cfg0.N, t.val = (i 0).val / 512 * 16 + (i 1).val / 512 := ⟨⟨_, hN⟩, rfl⟩
  obtain ⟨r0, r1⟩ := idx_out t
  rw [ht] at r0 r1
  have q0 : win0_4.index t (0 : Fin 2) = (i 0).val / 512 := by omega
  have q1 : win0_4.index t (1 : Fin 2) = (i 1).val / 512 := by omega
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 512 ≤ (i 1).val ∧ (i 1).val < win0_4.index t (1 : Fin 2) * 512 + 512
    omega

/-- THE RESULT ARRAY after the run is the weight of the argument arrays. -/
theorem final (c : Dev nD) : (dats m 0 c).arrAt 4 cfg0.N = (weight (m ((c : Thread nD τ).loc main_arg0)) (m ((c : Thread nD τ).loc main_arg1)) (m ((c : Thread nD τ).loc main_arg2)) (m ((c : Thread nD τ).loc main_arg3))) :=
  (dats m 0 c).arrAt_eq_of_cover 4 _ (fun t _ => flushed_eq m c t) cover

/-- The kernel's run: every weakly fair execution terminates with the result array at the weight of the argument arrays,
    the arguments unchanged. -/
theorem run : θ_run defs (onTc (τ := τ) (main (F := F))) ⟨m, fun _ => 0, ρ⟩ fun r => ∀ c : Dev nD,
      r.2.mem ((c : Thread nD τ).loc main_v19) = (weight (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Trellis.Kernel

end
-- ==== Proof.RefWeight.lean ====
/-
  The reference program computes the weight.

  Read one operation at a time, the reference's result at `(R, C)` is
  `((scale · sign_l[R]) · W[R, C]) · sign_r[C]`, where `W` is the looked-up array `[262144, 128, 2]` recast as
  `[512, 512, 16, 16]`, its two middle axes swapped, and recast as `[8192, 8192]`. Following `(R, C)` back through the two
  recasts and the swap lands on walk `512·(R / 16) + C / 16`, step `8·(R mod 16) + (C mod 16) / 2`, column `C mod 2` — pure
  arithmetic on row-major positions — and the lookup there is the codebook row the walk's word names.
-/
import proofs.«107242_j42176578847200_2_alg».proof.Proof.Gen.ReferenceIdeal.Read
import proofs.«107242_j42176578847200_2_alg».proof.Proof.Spec
import proofs.«107242_j42176578847200_2_alg».proof.Proof.LibGatherRead

noncomputable section

namespace Cert.Trellis.Ref

open Cert.ReferenceIdeal Cert.ReferenceIdeal.Gen Cert.ReferenceIdeal.Read
open Idealize.ShloMosaic Idealize.ShloMosaic.ValueIdx Cert.GatherRead Cert.Trellis

variable {F : FTy → Type} [FloatOps F]

/-- The reference's lookup at `(t, s, v)`: column `v` of the codebook row that step `s` of walk `t` names. -/
theorem lookup_apply (x0 : IVec S262144x128 32) (x1 : FVec F S65536x2 .f32) (t : Fin 262144) (s : Fin 128) (v : Fin 2) :
    val_main_v6 (F := F) x0 x1 (ix3 t s v) = x1 (ix2 (codeRow (x0 (ix2 t s))) v) := by
  unfold val_main_v6
  show Host.gather (rowDims 65536 2 262144 128 gather_S65536x2_S262144x128x1_S262144x128x2_2_0_n_n_0_2_12_wf) x1
    (val_main_v5 (F := F) x0) (ix3 t s v) = _
  rw [gather_row_apply (by decide)]
  have e : idx_main_v5 (rowIdx (ix3 t s v)) = ix2 t s :=
    funext fun a => match a with | ⟨0, _⟩ => rfl | ⟨1, _⟩ => rfl
  have hw : val_main_v5 (F := F) x0 (rowIdx (ix3 t s v))
      = Scalar.select (IntOp.cmpi .slt (x0 (ix2 t s)) 0#32) (IntOp.addi (x0 (ix2 t s)) 65536#32) (x0 (ix2 t s)) := by
    rw [val_main_v5_apply, e]
    rfl
  refine congrArg x1 (funext fun d => Fin.ext ?_)
  match d with
  | ⟨0, _⟩ =>
    show min (BitVec.toInt (val_main_v5 (F := F) x0 (rowIdx (ix3 t s v)))).toNat (65536 - 1) = _
    rw [hw]
    rfl
  | ⟨1, _⟩ => rfl

/-- The position `(R, C)` of the weight read back through the two recasts and the swap of the middle axes. -/
theorem origin (i : S8192x8192.Idx) :
    idx_main_v7 (idx_main_v8 (idx_main_v9 i)) = ix3 (tileOf i) (stepOf i) (halfOf i) := by
  have h0 : (i 0).val < 8192 := idx2_lt0 i
  have h1 : (i 1).val < 8192 := idx2_lt1 i
  -- the row-major position 8192·R + C, divided the four ways the recasts divide it
  have e1 : ((i 0).val * 8192 + (i 1).val) / 131072 = (i 0).val / 16 := by omega
  have e2 : ((i 0).val * 8192 + (i 1).val) / 8192 = (i 0).val := by omega
  have e3 : ((i 0).val * 8192 + (i 1).val) / 16 = (i 0).val * 512 + (i 1).val / 16 := by omega
  have e4 : ((i 0).val * 8192 + (i 1).val) % 16 = (i 1).val % 16 := by omega
  funext a
  apply Fin.ext
  match a with
  | ⟨0, _⟩ =>
    show (((((i 0).val * 8192 + (i 1).val) / 131072 * 512 + ((i 0).val * 8192 + (i 1).val) / 16 % 512) * 16
        + ((i 0).val * 8192 + (i 1).val) / 8192 % 16) * 16 + ((i 0).val * 8192 + (i 1).val) % 16) / 256
      = (i 0).val / 16 * 512 + (i 1).val / 16
    rw [e1, e2, e3, e4]
    omega
  | ⟨1, _⟩ =>
    show (((((i 0).val * 8192 + (i 1).val) / 131072 * 512 + ((i 0).val * 8192 + (i 1).val) / 16 % 512) * 16
        + ((i 0).val * 8192 + (i 1).val) / 8192 % 16) * 16 + ((i 0).val * 8192 + (i 1).val) % 16) / 2 % 128
      = (i 0).val % 16 * 8 + (i 1).val % 16 / 2
    rw [e1, e2, e3, e4]
    omega
  | ⟨2, _⟩ =>
    show (((((i 0).val * 8192 + (i 1).val) / 131072 * 512 + ((i 0).val * 8192 + (i 1).val) / 16 % 512) * 16
        + ((i 0).val * 8192 + (i 1).val) / 8192 % 16) * 16 + ((i 0).val * 8192 + (i 1).val) % 16) % 2
      = (i 1).val % 2
    rw [e1, e2, e3, e4]
    omega

/-- THE REFERENCE IS THE WEIGHT: its last stage, as a function of the four arguments, index by index. -/
theorem result_eq (x0 : IVec S262144x128 32) (x1 : FVec F S65536x2 .f32) (x2 x3 : FVec F S8192 .f32) :
    val_main_v17 (F := F) x0 x1 x2 x3 = weight x0 x1 x2 x3 := by
  funext i
  have e2 : idx_main_v12 (idx_main_v13 i) = ix1 ⟨(i 0).val, idx2_lt0 i⟩ :=
    funext fun a => match a with | ⟨0, _⟩ => rfl
  have e3 : idx_main_v15 (idx_main_v16 i) = ix1 ⟨(i 1).val, idx2_lt1 i⟩ :=
    funext fun a => match a with | ⟨0, _⟩ => rfl
  rw [val_main_v17_apply, val_main_v14_apply, val_main_v16_apply, val_main_v15_apply, val_main_v13_apply,
    val_main_v12_apply, val_main_v11_apply, val_main_v10_apply, val_main_cst_apply, val_main_v9_apply,
    val_main_v8_apply, val_main_v7_apply, origin, lookup_apply, e2, e3]
  rfl

end Cert.Trellis.Ref

end
-- ==== Proof.lean ====
/-
  The certificate of the trellis-walk dequantisation kernel against its reference.

  Both programs compute the 8192 × 8192 weight `((scale · sign_l[R]) · decoded[R, C]) · sign_r[C]`, where `decoded[R, C]` is
  column `C mod 2` of the codebook row named by step `8·(R mod 16) + (C mod 16) / 2` of walk `512·(R / 16) + C / 16`
  (Proof/Spec.lean). The reference looks up whole codebook rows and re-lays the result by two recasts and a swap of axes
  (Proof/RefWeight.lean). The kernel looks up the codebook's two columns separately on the host (Proof/HostLookup.lean) and
  interleaves, recasts and swaps inside each 512 × 512 block (Proof/BlockLayout.lean, Proof/KernelPayload.lean,
  Proof/BlockEntry.lean); its 256 blocks tile the result (Proof/KernelValue.lean). The two sides multiply the same three
  factors in the same order with the same scale literal, so they agree at every float instance and no property of the
  inputs is used: the equality is one of layouts.

  The three frames are the generated ones (the reference's is its generated run with the result dropped); the idealization
  rewrote nothing, so `preserves` is trivial.
-/
import proofs.«107242_j42176578847200_2_alg».proof.Defs
import proofs.«107242_j42176578847200_2_alg».proof.Proof.Gen.Kernel
import proofs.«107242_j42176578847200_2_alg».proof.Proof.Gen.Kernel.Skeleton
import proofs.«107242_j42176578847200_2_alg».proof.Proof.Gen.Kernel.Launch
import proofs.«107242_j42176578847200_2_alg».proof.Proof.Gen.Kernel.Points
import proofs.«107242_j42176578847200_2_alg».proof.Proof.Gen.Kernel.Frame
import proofs.«107242_j42176578847200_2_alg».proof.Proof.Gen.KernelIdeal
import proofs.«107242_j42176578847200_2_alg».proof.Proof.Gen.KernelIdeal.Skeleton
import proofs.«107242_j42176578847200_2_alg».proof.Proof.Gen.KernelIdeal.Launch
import proofs.«107242_j42176578847200_2_alg».proof.Proof.Gen.KernelIdeal.Points
import proofs.«107242_j42176578847200_2_alg».proof.Proof.Gen.KernelIdeal.Frame
import proofs.«107242_j42176578847200_2_alg».proof.Proof.Gen.ReferenceIdeal
import proofs.«107242_j42176578847200_2_alg».proof.Proof.Gen.Pre_finite_inputs
import proofs.«107242_j42176578847200_2_alg».proof.Proof.Gen.KernelIdeal.Value
import proofs.«107242_j42176578847200_2_alg».proof.Proof.Gen.ReferenceIdeal.Run
import proofs.«107242_j42176578847200_2_alg».proof.Proof.Gen.ReferenceIdeal.Read
import proofs.«107242_j42176578847200_2_alg».proof.Proof.KernelValue
import proofs.«107242_j42176578847200_2_alg».proof.Proof.RefWeight
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the weight of the argument arrays, and the argument arrays agree. -/
theorem algebraic : Cert.algebraic_KernelIdeal_ReferenceIdeal := by
  intro m ρ m' ρ' _ hagree
  refine ⟨_, Cert.Trellis.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Trellis.Ref.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
